-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S336x10000 : Shape := ⟨2, ![336, 10000]⟩
abbrev S336x128 : Shape := ⟨2, ![336, 128]⟩

abbrev nBuf : Space → Nat
  | .hbm => 4
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S10000x128, .f32⟩
  | .local _ .vmem, ⟨1, _⟩ => ⟨S336x10000, .f32⟩
  | .local _ .vmem, ⟨2, _⟩ => ⟨S336x10000, .f32⟩
  | .local _ .vmem, ⟨3, _⟩ => ⟨S128x128, .f32⟩
  | .local _ .vmem, ⟨4, _⟩ => ⟨S336x128, .f32⟩
  | .local _ .vmem, ⟨5, _⟩ => ⟨S336x128, .f32⟩
  | .local _ .vmem, ⟨6, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S336x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S336x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S336x10000_S336x10000_0_0 : ∀ a, (![0, 0] : Fin 2 → Nat) a + S336x10000.size a ≤ S336x10000.size a
  h_S336x10000 : 0 < S336x10000.numel
  inb_S336x128_S336x128_0_0 : ∀ a, (![0, 0] : Fin 2 → Nat) a + S336x128.size a ≤ S336x128.size a
  h_S336x128 : 0 < S336x128.numel
  dot_S10000x128_S128x128_S10000x128_1_0_0_1_n_n_wf : DotDims.WF S10000x128 S128x128 S10000x128 [1] [0] [0] [1] [] []
  dot_S336x10000_S10000x128_S336x128_1_0_0_1_n_n_wf : DotDims.WF S336x10000 S10000x128 S336x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S336x10000.size a < S10000x10000.size a
  hwx0_1 : ∀ i : grid0.Coords, EltTy.bits .f32 = 32 ∨ (Rect.unit (s := S10000x10000) (fun a => cc0_transform_1 i a * S336x10000.size a) (fun a => (Pipeline.Clip.of (cc0_transform_1 i a) (S336x10000.size a) (S10000x10000.size a)).extent (S336x10000.size a)) fun a => Pipeline.Clip.inb (Pipeline.Clip.ok_of (hstart0_1 i a))).WholeWords (EltTy.packing .f32)
  hwxs0_1 : ∀ i : grid0.Coords, EltTy.bits .f32 = 32 ∨ (Rect.unit (s := S336x10000) (fun _ => 0) (fun a => (Pipeline.Clip.of (cc0_transform_1 i a) (S336x10000.size a) (S10000x10000.size a)).extent (S336x10000.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S336x128.size a < S10000x128.size a
  hwx0_3 : ∀ i : grid0.Coords, EltTy.bits .f32 = 32 ∨ (Rect.unit (s := S10000x128) (fun a => cc0_transform_3 i a * S336x128.size a) (fun a => (Pipeline.Clip.of (cc0_transform_3 i a) (S336x128.size a) (S10000x128.size a)).extent (S336x128.size a)) fun a => Pipeline.Clip.inb (Pipeline.Clip.ok_of (hstart0_3 i a))).WholeWords (EltTy.packing .f32)
  hwxs0_3 : ∀ i : grid0.Coords, EltTy.bits .f32 = 32 ∨ (Rect.unit (s := S336x128) (fun _ => 0) (fun a => (Pipeline.Clip.of (cc0_transform_3 i a) (S336x128.size a) (S10000x128.size a)).extent (S336x128.size a)) fun a => (Nat.zero_add _).trans_le (Pipeline.Clip.extent_le (Pipeline.Clip.ok_of (hstart0_3 i a)))).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S336x10000_S10000x128_S336x128_1_0_0_1_n_n : DotDims S336x10000 S10000x128 S336x128 where
  lhsContracting := [1]
  rhsContracting := [0]
  lhsNonContracting := [0]
  rhsNonContracting := [1]
  lhsBatch := []
  rhsBatch := []
  wf := dot_S336x10000_S10000x128_S336x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S336x10000.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v0) S336x128.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | .hbm, ⟨5, _⟩ => ⟨S_, .f32⟩
  | .hbm, ⟨6, _⟩ => ⟨S10000x128, .f32⟩
  | .hbm, ⟨7, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BodyBits.lean ====
/-
  The kernel body of the word-level program, run once on whole staging memrefs: the same two triples as for the idealized
  program (first point: the scratch is filled with the features-by-weights product, then the output's buffer with the
  rectified product of the adjacency block and the scratch; later points: only the second step), over this program's names.
-/
import proofs.«178121_g53412213293592_cont_9to1c4b_632_16_alg».proof.Proof.Gen.Kernel.Frame
import proofs.«178121_g53412213293592_cont_9to1c4b_632_16_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a buffer reads after ONE unmasked store through its whole-shape rectangle at zero offsets: the payload,
    whatever it held before. Stated over an abstract shape, so that using it never unfolds an extent. -/
theorem read_store_whole {sig' : RefSig} {κ' : Kind} {sp' : Space} {S : Shape} {e' : EltTy} {Val : EltTy → Type} [∀ e, Nonempty (Val e)]
    (v : View sig' κ' sp' S e') (f : v.ty.Contents Val) {off : Fin S.rank → Nat} (h : off = fun _ => 0)
    (inb : ∀ a, off a + S.size a ≤ S.size a) (w : S.Idx → Val e') :
    v.read Val (v.writes Val f [(⟨Rect.unit off S.size inb, w⟩ : View.Piece Val S e')]) = w := by
  rw [View.read_writes_eq_canon _ _ _ (fun y => ⟨_, List.mem_singleton_self _, View.mem_set_unit_zero h inb y⟩),
    View.canon_unit_zero h]

/-- The body's one branch condition, as the printed scalar chain over the grid coordinate: "this is point 0". -/
abbrev firstPt (i : grid0.Coords) : Prop :=
  Scalar.cmpi .ne (Scalar.extui (Scalar.cmpi .eq (BitVec.ofNat 32 (i 0).val) 0#32)) 0#32 = 1#1

/-- It holds at the grid's first point and at no other. -/
theorem firstPt_iff : ∀ t : Fin cfg0.N, firstPt (grid0.coords t) ↔ t.val = 0 :=
  (by decide +kernel : ∀ t : Fin grid0.N, firstPt (grid0.coords t) ↔ t.val = 0)

/-- The body at the first point, on whole staging memrefs holding `X0` (the features), `X1` (a block of adjacency rows) and
    `X2` (the weights), the output's buffer and the scratch at anything: the scratch ends at the product `X0 · X2`
    (payload 1), the output's buffer at the rectified product of `X1` with that (payload 2), the inputs unchanged. -/
theorem run_first (c : Dev nD) (i : grid0.Coords) (hc : firstPt i)
    (arg1 : Memref sig .tc .vmem S10000x128 .f32) (harg1 : arg1.IsWhole) (arg2 : Memref sig .tc .vmem S336x10000 .f32) (harg2 : arg2.IsWhole)
    (arg3 : Memref sig .tc .vmem S128x128 .f32) (harg3 : arg3.IsWhole) (arg4 : Memref sig .tc .vmem S336x128 .f32) (harg4 : arg4.IsWhole)
    (arg5 : Memref sig .tc .vmem S10000x128 .f32) (harg5 : arg5.IsWhole)
    (X0 : Vec F S10000x128 .f32) (X1 : Vec F S336x10000 .f32) (X2 : Vec F S128x128 .f32) (E : Set ℕ) (K : PUnit → sProp 𝕄) :
    iprop(owns (c : Thread nD τ) arg1 fullShare X0 ∗ owns (c : Thread nD τ) arg2 fullShare X1 ∗ owns (c : Thread nD τ) arg3 fullShare X2
        ∗ (∃ d, owns (c : Thread nD τ) arg4 fullShare d) ∗ (∃ d, owns (c : Thread nD τ) arg5 fullShare d)
        ∗ (iprop(owns (c : Thread nD τ) arg1 fullShare X0 ∗ owns (c : Thread nD τ) arg2 fullShare X1 ∗ owns (c : Thread nD τ) arg3 fullShare X2
            ∗ owns (c : Thread nD τ) arg4 fullShare (k0_pay2 X1 (k0_pay1 X0 X2)) ∗ owns (c : Thread nD τ) arg5 fullShare (k0_pay1 X0 X2)) -∗ K ⟨⟩))
      ⊢ wp frame (wpE (defs₀ (F := F)) Variants.none c none) E (cc0__gnn_kernel i arg1 harg1 arg2 harg2 arg3 harg3 arg4 harg4 arg5 harg5) K := by
  simp only [cc0__gnn_kernel_eq_skeleton]; unfold cc0__gnn_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg1.eq_unread hf0; obtain rfl := harg2.eq_unread hf1; obtain rfl := harg3.eq_unread hf2
  sl_exec (disch := exact hc)
  sl_step
  iapply Hk
  sl_unfold_words
  have hz : (![0, 0] : Fin 2 → Nat) = fun _ => 0 := funext fun a => by fin_cases a <;> rfl
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [read_store_whole _ _ hz]
    simp only [View.readCov_unit_zero (S := S10000x128) _ hz, View.readAt_eq_ld, hf0, hf1, hf2,
      View.ld_unit_zero (S := S10000x128) hz, View.ld_unit_zero (S := S336x10000) hz, View.ld_unit_zero (S := S128x128) hz]
  · iexists _; isplitr
    swap; · iexact H4
    ipureintro
    rw [read_store_whole _ _ hz]
    simp only [View.readCov_unit_zero (S := S10000x128) _ hz, View.readAt_eq_ld, hf0, hf1, hf2,
      View.ld_unit_zero (S := S10000x128) hz, View.ld_unit_zero (S := S336x10000) hz, View.ld_unit_zero (S := S128x128) hz]

/-- The body at a later point: the branch is skipped, the scratch (holding `S`) is only read, and the output's buffer ends at
    the rectified product of the adjacency block `X1` with `S`. -/
theorem run_later (c : Dev nD) (i : grid0.Coords) (hc : ¬firstPt i)
    (arg1 : Memref sig .tc .vmem S10000x128 .f32) (harg1 : arg1.IsWhole) (arg2 : Memref sig .tc .vmem S336x10000 .f32) (harg2 : arg2.IsWhole)
    (arg3 : Memref sig .tc .vmem S128x128 .f32) (harg3 : arg3.IsWhole) (arg4 : Memref sig .tc .vmem S336x128 .f32) (harg4 : arg4.IsWhole)
    (arg5 : Memref sig .tc .vmem S10000x128 .f32) (harg5 : arg5.IsWhole)
    (X0 : Vec F S10000x128 .f32) (X1 : Vec F S336x10000 .f32) (X2 : Vec F S128x128 .f32) (S : Vec F S10000x128 .f32)
    (E : Set ℕ) (K : PUnit → sProp 𝕄) :
    iprop(owns (c : Thread nD τ) arg1 fullShare X0 ∗ owns (c : Thread nD τ) arg2 fullShare X1 ∗ owns (c : Thread nD τ) arg3 fullShare X2
        ∗ (∃ d, owns (c : Thread nD τ) arg4 fullShare d) ∗ owns (c : Thread nD τ) arg5 fullShare S
        ∗ (iprop(owns (c : Thread nD τ) arg1 fullShare X0 ∗ owns (c : Thread nD τ) arg2 fullShare X1 ∗ owns (c : Thread nD τ) arg3 fullShare X2
            ∗ owns (c : Thread nD τ) arg4 fullShare (k0_pay2 X1 S) ∗ owns (c : Thread nD τ) arg5 fullShare S) -∗ K ⟨⟩))
      ⊢ wp frame (wpE (defs₀ (F := F)) Variants.none c none) E (cc0__gnn_kernel i arg1 harg1 arg2 harg2 arg3 harg3 arg4 harg4 arg5 harg5) K := by
  simp only [cc0__gnn_kernel_eq_skeleton]; unfold cc0__gnn_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg1.eq_unread hf0; obtain rfl := harg2.eq_unread hf1; obtain rfl := harg3.eq_unread hf2
  obtain rfl := harg5.eq_unread hf4
  sl_exec (disch := exact hc)
  sl_step
  iapply Hk
  sl_unfold_words
  have hz : (![0, 0] : Fin 2 → Nat) = fun _ => 0 := funext fun a => by fin_cases a <;> rfl
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [read_store_whole _ _ hz]
    simp only [View.readAt_eq_ld, hf1, hf4, View.ld_unit_zero (S := S10000x128) hz, View.ld_unit_zero (S := S336x10000) hz]
  · iexists _; isplitr; · ipureintro; exact hf4
    iexact H4

end Cert.Kernel.Body

end
-- ==== Proof.FrameBits.lean ====
/-
  The frame of the word-level program: it runs to the end, faults nowhere, and leaves its three argument arrays unchanged.

  The grid has 30 points; point t stages rows 336·t … of the adjacency matrix, and the last block overhangs the array by 80
  rows, so its staging buffer holds, past row 256, words that nothing names. At word level the matrix product of such a
  buffer is not known row by row, so nothing is stated about the result: its window is forgotten (handed to the body at
  any contents, taken back at any contents), the scratch is held at "some contents" at every point, and the input windows'
  buffers are handed back as found — the adjacency's on the rows inside the array, which is all its (loose) window asks.
-/
import proofs.«178121_g53412213293592_cont_9to1c4b_632_16_alg».proof.Proof.BodyBits

set_option maxRecDepth 16384

noncomputable section

namespace Cert.Kernel.Forget

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch operand as a memref, and each window's current staging memref at a point, with its wholeness. -/
abbrev scM : Memref sig .tc .vmem S10000x128 .f32 := Memref.whole cc0_scratch0
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S336x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S336x128 .f32 := win0_3.stage (cfg0.slots t 3)
abbrev hs3 (t : Fin cfg0.N) : (ms3 t).IsWhole := hstage0_3 ((cfg0.slots t 3).cast nbuf0_3)

/-- The class invariant, with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The block of adjacency rows at point `t` as its staging buffer is stated to hold it: the rows inside the array, and the
    zero word on the rows past the array's end (only the last block has any). -/
def adjBlk (c : Dev nD) (t : Fin cfg0.N) : Vec F S336x10000 .f32 :=
  win0_1.fill (grid0.coords t) (fun _ => Scalar.ofBits .f32 0#32) (iblk m c 1 t)

/-- The frame says nothing of the result: its window is forgotten. -/
def fgt : Fin cfg0.W → Bool := fun | 0 => false | 1 => false | 2 => false | 3 => true | ⟨_ + 4, h⟩ => absurd h (Nat.not_lt.2 (Nat.le_add_left _ _))

/-- The proof data: the arrays as the region finds them; after the body each input's buffer at its block (the adjacency's
    filled out with zeros past the array's end); the invariant the class's at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => adjBlk m c t
    | ⟨2, _⟩ => iblk m c 2 t
    | ⟨3, _⟩ => fun _ => Scalar.ofBits .f32 0#32
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = adjBlk m c t := by dsimp only [dats]
theorem after2 (c : Dev nD) (t : Fin cfg0.N) : (dats m 0 c).after 2 t = iblk m c 2 t := by dsimp only [dats]

theorem before0 (c : Dev nD) (t : Fin cfg0.N) (d) : (dats m 0 c).before 0 t d = iblk m c 0 t :=
  before0_0_of m (dats m 0 c) (A_eq m c 0) (after0 m c) t d
theorem before2 (c : Dev nD) (t : Fin cfg0.N) (d) : (dats m 0 c).before 2 t d = iblk m c 2 t :=
  before0_2_of m (dats m 0 c) (A_eq m c 2) (after2 m c) t d
/-- The adjacency's buffer is fetched at every point: it holds the block on the rows inside the array, anything past them. -/
theorem before1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]; try rfl

theorem body_obligation (c : Dev nD) :
    BodyObligationLoose (dats m 0 c) (defs₀ (F := F)) Variants.none () Set.univ fgt := fun t => by
  rw [bigSep_W0, bigSep_W0]
  simp only [fgt]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA_eq, after0, after1, after2]
  iintro ⟨⟨⟨%dS, HS⟩, Hg⟩, Ho, ⟨%d0, H0⟩, ⟨%d1, H1⟩, ⟨%d2, H2⟩, ⟨%X3, H3⟩⟩
  rw [before0 m c t d0, before1 m c t d1, before2 m c t d2]
  -- what the adjacency's buffer holds is the block filled out with `d1`; on the rows inside the array that is `adjBlk`
  have h1 : (win0 1).fill (grid0.coords t) d1 ((win0 1).cut (grid0.coords t) (adjBlk m c t))
      = win0_1.fill (grid0.coords t) d1 (iblk m c 1 t) := by
    unfold adjBlk; exact congrArg _ (win0_1.cut_fill _ _ _)
  by_cases hz : t.val = 0
  · iapply (run_first (F := F) c (grid0.coords t) ((firstPt_iff t).mpr hz) (ms0 t) (hs0 t) (ms1 t) (hs1 t) (ms2 t) (hs2 t)
      (ms3 t) (hs3 t) scM (Memref.isWhole_whole _) (iblk m c 0 t) (win0_1.fill (grid0.coords t) d1 (iblk m c 1 t)) (iblk m c 2 t) Set.univ _)
    isplitl [H0]; · iexact H0
    isplitl [H1]; · iexact H1
    isplitl [H2]; · iexact H2
    isplitl [H3]; · iexists _; iexact H3
    isplitl [HS]; · iexists _; iexact HS
    iintro ⟨H0, H1, H2, H3, HS⟩
    isplitl [HS Hg]
    · isplitl [HS]; · iexists _; iexact HS
      iexact Hg
    isplitl [Ho]; · iexact Ho
    isplitl [H0]; · iexact H0
    isplitl [H1]; · iexists d1; rw [h1]; iexact H1
    isplitl [H2]; · iexact H2
    iexists _; iexact H3
  · iapply (run_later (F := F) c (grid0.coords t) (fun h => hz ((firstPt_iff t).mp h)) (ms0 t) (hs0 t) (ms1 t) (hs1 t) (ms2 t) (hs2 t)
      (ms3 t) (hs3 t) scM (Memref.isWhole_whole _) (iblk m c 0 t) (win0_1.fill (grid0.coords t) d1 (iblk m c 1 t)) (iblk m c 2 t) dS Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]; · iexists _; iexact HS
      iexact Hg
    isplitl [Ho]; · iexact Ho
    isplitl [H0]; · iexact H0
    isplitl [H1]; · iexists d1; rw [h1]; iexact H1
    isplitl [H2]; · iexact H2
    iexists _; iexact H3

/-- The exact data read relationally, the result's window forgotten: its relation says nothing. -/
def rdat (c : Dev nD) : RDat τ (Elt F) Unit ℕ (UR sig nD τ) ℕ cfg0 c := (dats m 0 c).toRForget fgt

-- the launch theorem's implicit arguments are found by unifying its conclusion with this one, which takes unfolding plain
-- definitions in a metavariable's type
set_option backward.isDefEq.respectTransparency.types false in
/-- The frame run: every weakly fair execution of @main terminates, faulting nowhere; each input array ends as it was. -/
theorem run_main : θ_run defs (onTc (τ := τ) (main (F := F))) (s₀ m ρ) (Pipeline.RDat.FramePost cfg0 (rdat m) (V m)) :=
  Pipeline.RDat.θ_run_frame cfgs (0 : Fin 1) launch0 defs₀ Variants.none (rdat m) m ρ main
    (hbody := fun c => (body_obligation m c).toRForget)
    (hshare := fun c => (rdat m c).share_full fun _ => rfl) (howed := fun _ _ => rfl)
    (V := V m) (hmain := hmain m Variants.none) (hA := fun c w => A_eq m c w) (hΦ := fun _ _ => rfl)

/-- An input window's array may hold, after the run, only what it held at entry. -/
theorem kept_in (c : Dev nD) (w : Fin cfg0.W) (hin : (cfg0.win w).isOut = false)
    (X : Buf (Elt F) ((cfg0.win w).arr.view.loc (c.tc : Thread nD τ))) (h : (rdat m c).ArrAt w cfg0.N X) :
    X = V m c (Pipeline.arrRef spec0 w) := by
  rw [Pipeline.RDat.ArrAt_in (rdat m c) w hin cfg0.N] at h
  exact h.trans (A_eq m c w)

/-- The frame claim's post, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(kept_in m c 0 rfl _ ((h c).1 0)).trans (V_main_arg0 m c),
    (kept_in m c 1 rfl _ ((h c).1 1)).trans (V_main_arg1 m c), (kept_in m c 2 rfl _ ((h c).1 2)).trans (V_main_arg2 m c)⟩) (run_main m ρ)

end Cert.Kernel.Forget

end
-- ==== Proof.BodyIdeal.lean ====
/-
  The kernel body of the idealized program, run once on whole staging memrefs. The body is: at the grid's first point
  only, load the features and the weights and store their product into the scratch; then, at every point, load the block of
  adjacency rows and the scratch and store max(block · scratch, 0) into the output's buffer. Two triples say what each
  buffer holds afterwards, through the skeleton's payload names: one for the first point, one for the others.
-/
import proofs.«178121_g53412213293592_cont_9to1c4b_632_16_alg».proof.Proof.Gen.KernelIdeal.Frame
import proofs.«178121_g53412213293592_cont_9to1c4b_632_16_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a buffer reads after ONE unmasked store through its whole-shape rectangle at zero offsets: the payload,
    whatever it held before. Stated over an abstract shape, so that using it never unfolds an extent. -/
theorem read_store_whole {sig' : RefSig} {κ' : Kind} {sp' : Space} {S : Shape} {e' : EltTy} {Val : EltTy → Type} [∀ e, Nonempty (Val e)]
    (v : View sig' κ' sp' S e') (f : v.ty.Contents Val) {off : Fin S.rank → Nat} (h : off = fun _ => 0)
    (inb : ∀ a, off a + S.size a ≤ S.size a) (w : S.Idx → Val e') :
    v.read Val (v.writes Val f [(⟨Rect.unit off S.size inb, w⟩ : View.Piece Val S e')]) = w := by
  rw [View.read_writes_eq_canon _ _ _ (fun y => ⟨_, List.mem_singleton_self _, View.mem_set_unit_zero h inb y⟩),
    View.canon_unit_zero h]

/-- The body's one branch condition, as the printed scalar chain over the grid coordinate: "this is point 0". -/
abbrev firstPt (i : grid0.Coords) : Prop :=
  Scalar.cmpi .ne (Scalar.extui (Scalar.cmpi .eq (BitVec.ofNat 32 (i 0).val) 0#32)) 0#32 = 1#1

/-- It holds at the grid's first point and at no other. -/
theorem firstPt_iff : ∀ t : Fin cfg0.N, firstPt (grid0.coords t) ↔ t.val = 0 :=
  (by decide +kernel : ∀ t : Fin grid0.N, firstPt (grid0.coords t) ↔ t.val = 0)

/-- The body at the first point, on whole staging memrefs holding `X0` (the features), `X1` (a block of adjacency rows) and
    `X2` (the weights), the output's buffer and the scratch at anything: the scratch ends at the product `X0 · X2`
    (payload 1), the output's buffer at the rectified product of `X1` with that (payload 2), the inputs unchanged. -/
theorem run_first (c : Dev nD) (i : grid0.Coords) (hc : firstPt i)
    (arg1 : Memref sig .tc .vmem S10000x128 .f32) (harg1 : arg1.IsWhole) (arg2 : Memref sig .tc .vmem S336x10000 .f32) (harg2 : arg2.IsWhole)
    (arg3 : Memref sig .tc .vmem S128x128 .f32) (harg3 : arg3.IsWhole) (arg4 : Memref sig .tc .vmem S336x128 .f32) (harg4 : arg4.IsWhole)
    (arg5 : Memref sig .tc .vmem S10000x128 .f32) (harg5 : arg5.IsWhole)
    (X0 : Vec F S10000x128 .f32) (X1 : Vec F S336x10000 .f32) (X2 : Vec F S128x128 .f32) (E : Set ℕ) (K : PUnit → sProp 𝕄) :
    iprop(owns (c : Thread nD τ) arg1 fullShare X0 ∗ owns (c : Thread nD τ) arg2 fullShare X1 ∗ owns (c : Thread nD τ) arg3 fullShare X2
        ∗ (∃ d, owns (c : Thread nD τ) arg4 fullShare d) ∗ (∃ d, owns (c : Thread nD τ) arg5 fullShare d)
        ∗ (iprop(owns (c : Thread nD τ) arg1 fullShare X0 ∗ owns (c : Thread nD τ) arg2 fullShare X1 ∗ owns (c : Thread nD τ) arg3 fullShare X2
            ∗ owns (c : Thread nD τ) arg4 fullShare (k0_pay2 X1 (k0_pay1 X0 X2)) ∗ owns (c : Thread nD τ) arg5 fullShare (k0_pay1 X0 X2)) -∗ K ⟨⟩))
      ⊢ wp frame (wpE (defs₀ (F := F)) Variants.none c none) E (cc0__gnn_kernel i arg1 harg1 arg2 harg2 arg3 harg3 arg4 harg4 arg5 harg5) K := by
  simp only [cc0__gnn_kernel_eq_skeleton]; unfold cc0__gnn_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg1.eq_unread hf0; obtain rfl := harg2.eq_unread hf1; obtain rfl := harg3.eq_unread hf2
  sl_exec (disch := exact hc)
  sl_step
  iapply Hk
  sl_unfold_words
  have hz : (![0, 0] : Fin 2 → Nat) = fun _ => 0 := funext fun a => by fin_cases a <;> rfl
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [read_store_whole _ _ hz]
    simp only [View.readCov_unit_zero (S := S10000x128) _ hz, View.readAt_eq_ld, hf0, hf1, hf2,
      View.ld_unit_zero (S := S10000x128) hz, View.ld_unit_zero (S := S336x10000) hz, View.ld_unit_zero (S := S128x128) hz]
  · iexists _; isplitr
    swap; · iexact H4
    ipureintro
    rw [read_store_whole _ _ hz]
    simp only [View.readCov_unit_zero (S := S10000x128) _ hz, View.readAt_eq_ld, hf0, hf1, hf2,
      View.ld_unit_zero (S := S10000x128) hz, View.ld_unit_zero (S := S336x10000) hz, View.ld_unit_zero (S := S128x128) hz]

/-- The body at a later point: the branch is skipped, the scratch (holding `S`) is only read, and the output's buffer ends at
    the rectified product of the adjacency block `X1` with `S`. -/
theorem run_later (c : Dev nD) (i : grid0.Coords) (hc : ¬firstPt i)
    (arg1 : Memref sig .tc .vmem S10000x128 .f32) (harg1 : arg1.IsWhole) (arg2 : Memref sig .tc .vmem S336x10000 .f32) (harg2 : arg2.IsWhole)
    (arg3 : Memref sig .tc .vmem S128x128 .f32) (harg3 : arg3.IsWhole) (arg4 : Memref sig .tc .vmem S336x128 .f32) (harg4 : arg4.IsWhole)
    (arg5 : Memref sig .tc .vmem S10000x128 .f32) (harg5 : arg5.IsWhole)
    (X0 : Vec F S10000x128 .f32) (X1 : Vec F S336x10000 .f32) (X2 : Vec F S128x128 .f32) (S : Vec F S10000x128 .f32)
    (E : Set ℕ) (K : PUnit → sProp 𝕄) :
    iprop(owns (c : Thread nD τ) arg1 fullShare X0 ∗ owns (c : Thread nD τ) arg2 fullShare X1 ∗ owns (c : Thread nD τ) arg3 fullShare X2
        ∗ (∃ d, owns (c : Thread nD τ) arg4 fullShare d) ∗ owns (c : Thread nD τ) arg5 fullShare S
        ∗ (iprop(owns (c : Thread nD τ) arg1 fullShare X0 ∗ owns (c : Thread nD τ) arg2 fullShare X1 ∗ owns (c : Thread nD τ) arg3 fullShare X2
            ∗ owns (c : Thread nD τ) arg4 fullShare (k0_pay2 X1 S) ∗ owns (c : Thread nD τ) arg5 fullShare S) -∗ K ⟨⟩))
      ⊢ wp frame (wpE (defs₀ (F := F)) Variants.none c none) E (cc0__gnn_kernel i arg1 harg1 arg2 harg2 arg3 harg3 arg4 harg4 arg5 harg5) K := by
  simp only [cc0__gnn_kernel_eq_skeleton]; unfold cc0__gnn_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg1.eq_unread hf0; obtain rfl := harg2.eq_unread hf1; obtain rfl := harg3.eq_unread hf2
  obtain rfl := harg5.eq_unread hf4
  sl_exec (disch := exact hc)
  sl_step
  iapply Hk
  sl_unfold_words
  have hz : (![0, 0] : Fin 2 → Nat) = fun _ => 0 := funext fun a => by fin_cases a <;> rfl
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr
    swap; · iexact H3
    ipureintro
    rw [read_store_whole _ _ hz]
    simp only [View.readAt_eq_ld, hf1, hf4, View.ld_unit_zero (S := S10000x128) hz, View.ld_unit_zero (S := S336x10000) hz]
  · iexists _; isplitr; · ipureintro; exact hf4
    iexact H4

end Cert.KernelIdeal.Body

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.Spec.lean ====
/-
  The layer, as one function of the three argument arrays, on the extended reals:
    support(k, q) = Σ_j features(k, j) · weight(j, q)          (j over the 128 input channels)
    layer(r, q)   = max( Σ_k adj(r, k) · support(k, q), 0 )     (k over the 10000 nodes)
  Both programs compute exactly this, with this grouping of the two sums; no law of the extended reals is needed to join them.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The arrays' shapes: features and result [10000, 128], adjacency [10000, 10000], weight [128, 128]. -/
abbrev SF : Shape := ⟨2, ![10000, 128]⟩
abbrev SA : Shape := ⟨2, ![10000, 10000]⟩
abbrev SW : Shape := ⟨2, ![128, 128]⟩

/-- The value of the f32 zero word. -/
abbrev zero : Ideal .f32 := FloatOps.ofBits (F := Ideal) .f32 0x00000000#32

/-- The transformed features: features · weight at (k, q). -/
def support (f : FVec Ideal SF .f32) (w : FVec Ideal SW .f32) (k : Fin 10000) (q : Fin 128) : Ideal .f32 :=
  ∑ j : Fin 128, f (ix2 k j) * w (ix2 j q)

/-- The layer's output at (r, q): the rectified r-th row of adj · support. -/
def layerAt (f : FVec Ideal SF .f32) (adj : FVec Ideal SA .f32) (w : FVec Ideal SW .f32) (r : Fin 10000) (q : Fin 128) : Ideal .f32 :=
  max (∑ k : Fin 10000, adj (ix2 r k) * support f w k q) zero

/-- The layer's whole output array. -/
def layer (f : FVec Ideal SF .f32) (adj : FVec Ideal SA .f32) (w : FVec Ideal SW .f32) : FVec Ideal SF .f32 :=
  fun i => layerAt f adj w (i 0) (i 1)

theorem layer_ix2 (f : FVec Ideal SF .f32) (adj : FVec Ideal SA .f32) (w : FVec Ideal SW .f32) (r : Fin 10000) (q : Fin 128) :
    layer f adj w (ix2 r q) = layerAt f adj w r q := rfl

end Cert.Spec

end
-- ==== Proof.PayIdeal.lean ====
/-
  The kernel body's two payloads read at an entry, on the extended reals. Payload 1 (stored into the scratch at the first
  point) is the features-by-weights product: at (k, q) the sum over j of features(k, j) · weight(j, q). Payload 2 (stored
  into the output's buffer at every point) is the rectified product of the staged adjacency rows with the scratch: at (p, q)
  the maximum of 0 and the sum over k of rows(p, k) · scratch(k, q) — so its row p depends on row p of the staged rows only.
-/
import proofs.«178121_g53412213293592_cont_9to1c4b_632_16_alg».proof.Proof.Gen.KernelIdeal.Skeleton
import proofs.«178121_g53412213293592_cont_9to1c4b_632_16_alg».proof.Proof.LibMatmulPlain
import proofs.«178121_g53412213293592_cont_9to1c4b_632_16_alg».proof.Proof.Spec
import Idealize.ShloMosaic.Lib.ValueIdx
import Idealize.ShloMosaic.Lib.Pipeline.Value

noncomputable section

open scoped BigOperators

namespace Cert.KernelIdeal.Pay

open Cert.KernelIdeal Cert.KernelIdeal.Gen Cert.Spec
open Idealize.ShloMosaic Idealize.ShloMosaic.ValueIdx

/-- Payload 1 at (k, q): features · weight there. -/
theorem pay1_apply (f : Vec Ideal S10000x128 .f32) (w : Vec Ideal S128x128 .f32) (k : Fin 10000) (q : Fin 128) :
    k0_pay1 (F := Ideal) f w (ix2 k q) = support f w k q := by
  unfold k0_pay1
  show shapeCast S10000x128 (matmul dot_S10000x128_S128x128_S10000x128_1_0_0_1_n_n none f w (constant (F := Ideal) S10000x128 .f32 0x00000000#32))
      shapeCasts_S10000x128_S10000x128 (ix2 k q) = _
  rw [shapeCast_self]
  exact Cert.LibMatmulPlain.matmul_zero_apply dot_S10000x128_S128x128_S10000x128_1_0_0_1_n_n rfl rfl rfl rfl rfl rfl none f w k q

/-- Payload 2 at (p, q): the rectified p-th staged row times column q of the scratch. -/
theorem pay2_apply (x : Vec Ideal S336x10000 .f32) (s : Vec Ideal S10000x128 .f32) (p : Fin 336) (q : Fin 128) :
    k0_pay2 (F := Ideal) x s (ix2 p q) = max (∑ k : Fin 10000, x (ix2 p k) * s (ix2 k q)) zero := by
  unfold k0_pay2
  show max (matmul dot_S336x10000_S10000x128_S336x128_1_0_0_1_n_n none x s (constant (F := Ideal) S336x128 .f32 0x00000000#32) (ix2 p q)) _ = _
  exact congrArg (fun z => max z zero)
    (Cert.LibMatmulPlain.matmul_zero_apply dot_S336x10000_S10000x128_S336x128_1_0_0_1_n_n rfl rfl rfl rfl rfl rfl none x s p q)

/-- Row p of payload 2 reads row p of the staged rows and nothing else of them. -/
theorem pay2_congr_row (x x' : Vec Ideal S336x10000 .f32) (s : Vec Ideal S10000x128 .f32) (p : Fin 336) (q : Fin 128)
    (h : ∀ k : Fin 10000, x (ix2 p k) = x' (ix2 p k)) :
    k0_pay2 (F := Ideal) x s (ix2 p q) = k0_pay2 (F := Ideal) x' s (ix2 p q) := by
  rw [pay2_apply, pay2_apply]
  exact congrArg (fun z => max z zero) (Finset.sum_congr rfl fun k _ => by rw [h k])

end Cert.KernelIdeal.Pay

end
-- ==== Proof.FrameIdeal.lean ====
/-
  The run of the idealized kernel, with every array's final contents named.

  The grid has 30 points. Point t stages rows 336·t … of the adjacency matrix (the last block overhangs the array by 80 rows:
  past row 256 its buffer holds words nothing names), the whole features and weights arrays, and writes back rows 336·t … of
  the result (the last write-back cut to 256 rows). At the first point the body fills a scratch buffer with the product
  features · weights, and at every point it stores max(rows · scratch, 0) into the output's buffer.

  The proof data say: from the first point on the scratch holds payload 1 of the two staged arrays; after point t the output's
  buffer holds payload 2 of the adjacency block — filled out with zeros past the array's end — and the scratch. The body really
  computes payload 2 of the block filled out with unnamed words; the two agree on every row that is written back, because on
  the extended reals row p of a matrix product reads row p of its left operand only, and a written-back row lies inside the
  array. That is all the two clipped (loose) windows' obligations ask.
-/
import proofs.«178121_g53412213293592_cont_9to1c4b_632_16_alg».proof.Proof.BodyIdeal
import proofs.«178121_g53412213293592_cont_9to1c4b_632_16_alg».proof.Proof.PayIdeal

set_option maxRecDepth 16384

noncomputable section

open scoped BigOperators

namespace Cert.KernelIdeal.Exact

open Cert.KernelIdeal Cert.KernelIdeal.Gen Cert.KernelIdeal.Body Cert.Spec
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The scratch operand as a memref, and each window's current staging memref at a point, with its wholeness. -/
abbrev scM : Memref sig .tc .vmem S10000x128 .f32 := Memref.whole cc0_scratch0
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S336x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S336x128 .f32 := win0_3.stage (cfg0.slots t 3)
abbrev hs3 (t : Fin cfg0.N) : (ms3 t).IsWhole := hstage0_3 ((cfg0.slots t 3).cast nbuf0_3)

/-- The class invariant, with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The grid's first point. -/
def t₀ : Fin cfg0.N := ⟨0, by rw [show cfg0.N = 30 from N_0]; decide⟩

/-- The block of adjacency rows at point `t` as its staging buffer is stated to hold it: the rows inside the array, and the
    zero word on the rows past the array's end (only the last block has any). -/
def adjBlk (c : Dev nD) (t : Fin cfg0.N) : Vec Ideal S336x10000 .f32 :=
  win0_1.fill (grid0.coords t) (fun _ => Scalar.ofBits (F := Ideal) .f32 0#32) (iblk m c 1 t)

/-- What the scratch holds from the first point on: the features-by-weights product (payload 1 of the staged arrays). -/
def supp (c : Dev nD) : Vec Ideal S10000x128 .f32 := k0_pay1 (iblk m c 0 t₀) (iblk m c 2 t₀)

/-- What the output's buffer is stated to hold after point `t`: payload 2 of the zero-filled adjacency block and the scratch. -/
def outBlk (c : Dev nD) (t : Fin cfg0.N) : Vec Ideal S336x128 .f32 := k0_pay2 (adjBlk m c t) (supp m c)

/-- The invariant before position `n`: before the first point the class's (the scratch at anything); afterwards the scratch at
    the features-by-weights product, and the generator register at some state. -/
def PhiS (c : Dev nD) : ℕ → sProp 𝕄
  | 0 => Pipeline.ΦA spec0 c
  | _ + 1 => iprop(iprop(owns (c : Thread nD τ) scM fullShare (supp m c)) ∗ (∃ r, prngReg c r))

theorem PhiS_pos (c : Dev nD) (n : ℕ) (hn : n ≠ 0) :
    PhiS m c n = iprop(iprop(owns (c : Thread nD τ) scM fullShare (supp m c)) ∗ (∃ r, prngReg c r)) := by
  cases n with
  | zero => exact absurd rfl hn
  | succ n => rfl

/-- The proof data: the arrays as the region finds them; after the body each input's buffer at its block (the adjacency's
    filled out with zeros past the array's end) and the output's at `outBlk`; the invariant `PhiS`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => adjBlk m c t
    | ⟨2, _⟩ => iblk m c 2 t
    | ⟨3, _⟩ => outBlk m c t
  Φ t := PhiS m c t.val
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = adjBlk m c t := by dsimp only [dats]
theorem after2 (c : Dev nD) (t : Fin cfg0.N) : (dats m 0 c).after 2 t = iblk m c 2 t := by dsimp only [dats]
theorem after3 (c : Dev nD) (t : Fin cfg0.N) : (dats m 0 c).after 3 t = outBlk m c t := by dsimp only [dats]

theorem before0 (c : Dev nD) (t : Fin cfg0.N) (d) : (dats m 0 c).before 0 t d = iblk m c 0 t :=
  before0_0_of m (dats m 0 c) (A_eq m c 0) (after0 m c) t d
theorem before2 (c : Dev nD) (t : Fin cfg0.N) (d) : (dats m 0 c).before 2 t d = iblk m c 2 t :=
  before0_2_of m (dats m 0 c) (A_eq m c 2) (after2 m c) t d
/-- The adjacency's buffer is fetched at every point: it holds the block on the rows inside the array, anything past them. -/
theorem before1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]; try rfl

/-- The two clipped windows cut their blocks alike on the row axis, and the adjacency's is never cut on the column axis. -/
theorem xsize_facts : ∀ t : Fin cfg0.N,
    win0_1.xsize (grid0.coords t) 0 = win0_3.xsize (grid0.coords t) 0 ∧ win0_1.xsize (grid0.coords t) 1 = 10000 :=
  (by decide +kernel : ∀ t : Fin grid0.N,
    win0_1.xsize (grid0.coords t) 0 = win0_3.xsize (grid0.coords t) 0 ∧ win0_1.xsize (grid0.coords t) 1 = 10000)

/-- On the rows that are written back, what the body computes does not depend on the words past the adjacency array's end:
    row p of payload 2 reads row p of the staged rows only, and a written-back row is a row inside the array, where the
    staged rows are the array's whatever filled the buffer out. -/
theorem cut_out (c : Dev nD) (t : Fin cfg0.N) (d : S336x10000.Idx → Elt Ideal .f32) (s : Vec Ideal S10000x128 .f32) :
    win0_3.cut (grid0.coords t) (k0_pay2 (F := Ideal) (win0_1.fill (grid0.coords t) d (iblk m c 1 t)) s)
      = win0_3.cut (grid0.coords t) (k0_pay2 (F := Ideal) (adjBlk m c t) s) := by
  funext j
  have hy := eq_ix2 (n0 := 336) (n1 := 128) (win0_3.xinj (grid0.coords t) j)
  show k0_pay2 (F := Ideal) _ s (win0_3.xinj (grid0.coords t) j) = k0_pay2 (F := Ideal) _ s (win0_3.xinj (grid0.coords t) j)
  rw [hy]
  refine Pay.pay2_congr_row _ _ s _ _ fun k => ?_
  have hm : win0_1.moved (grid0.coords t) (ix2 (win0_3.xinj (grid0.coords t) j 0) k) = true :=
    (win0_1.moved_iff _ _).mpr fun a => by
      match a with
      | ⟨0, _⟩ =>
        show (j 0).val < win0_1.xsize (grid0.coords t) 0
        rw [(xsize_facts t).1]; exact (j 0).isLt
      | ⟨1, _⟩ =>
        show k.val < win0_1.xsize (grid0.coords t) 1
        rw [(xsize_facts t).2]; exact k.isLt
  unfold adjBlk
  simp only [Window.fill, hm, ↓reduceDIte]

theorem body_obligation (c : Dev nD) :
    BodyObligationLoose (dats m 0 c) (defs₀ (F := Ideal)) Variants.none () Set.univ := fun t => by
  rw [bigSep_W0, bigSep_W0]
  simp only
  rw [show (dats m 0 c).owesAt () t.succ = (dats m 0 c).owesAt () t.castSucc from rfl,
    show (dats m 0 c).Φ t.succ = PhiS m c (t.val + 1) from rfl, show (dats m 0 c).Φ t.castSucc = PhiS m c t.val from rfl,
    after0, after1, after2, after3,
    show PhiS m c (t.val + 1) = iprop(iprop(owns (c : Thread nD τ) scM fullShare (supp m c)) ∗ (∃ r, prngReg c r)) from rfl]
  -- the adjacency's buffer is handed back as found: on the rows inside the array that is `adjBlk`
  have h1 : ∀ d1, (win0 1).fill (grid0.coords t) d1 ((win0 1).cut (grid0.coords t) (adjBlk m c t))
      = win0_1.fill (grid0.coords t) d1 (iblk m c 1 t) := fun d1 => by
    unfold adjBlk; exact congrArg _ (win0_1.cut_fill _ _ _)
  -- the output's buffer holds payload 2 of what the adjacency's held: on the written-back rows that is `outBlk`
  have h3 : ∀ d1, (win0 3).fill (grid0.coords t) (k0_pay2 (F := Ideal) (win0_1.fill (grid0.coords t) d1 (iblk m c 1 t)) (supp m c))
        ((win0 3).cut (grid0.coords t) (outBlk m c t))
      = k0_pay2 (F := Ideal) (win0_1.fill (grid0.coords t) d1 (iblk m c 1 t)) (supp m c) := fun d1 =>
    win0_3.fill_congr_cut (grid0.coords t) (cut_out m c t d1 (supp m c))
  by_cases hz : t.val = 0
  · rw [show PhiS m c t.val = Pipeline.ΦA spec0 c from by rw [hz]; rfl, PhiA_eq]
    obtain rfl : t = t₀ := Fin.ext hz
    iintro ⟨⟨⟨%dS, HS⟩, Hg⟩, Ho, ⟨%d0, H0⟩, ⟨%d1, H1⟩, ⟨%d2, H2⟩, ⟨%d3, H3⟩⟩
    rw [before0 m c t₀ d0, before1 m c t₀ d1, before2 m c t₀ d2]
    iapply (run_first (F := Ideal) c (grid0.coords t₀) ((firstPt_iff t₀).mpr hz) (ms0 t₀) (hs0 t₀) (ms1 t₀) (hs1 t₀) (ms2 t₀) (hs2 t₀)
      (ms3 t₀) (hs3 t₀) scM (Memref.isWhole_whole _) (iblk m c 0 t₀) (win0_1.fill (grid0.coords t₀) d1 (iblk m c 1 t₀)) (iblk m c 2 t₀) Set.univ _)
    isplitl [H0]; · iexact H0
    isplitl [H1]; · iexact H1
    isplitl [H2]; · iexact H2
    isplitl [H3]; · iexists _; iexact H3
    isplitl [HS]; · iexists _; iexact HS
    iintro ⟨H0, H1, H2, H3, HS⟩
    isplitl [HS Hg]
    · isplitl [HS]; · iexact HS
      iexact Hg
    isplitl [Ho]; · iexact Ho
    isplitl [H0]; · iexact H0
    isplitl [H1]; · iexists d1; rw [h1]; iexact H1
    isplitl [H2]; · iexact H2
    iexists _; rw [h3 d1]; iexact H3
  · rw [PhiS_pos m c t.val hz]
    iintro ⟨⟨HS, Hg⟩, Ho, ⟨%d0, H0⟩, ⟨%d1, H1⟩, ⟨%d2, H2⟩, ⟨%d3, H3⟩⟩
    rw [before0 m c t d0, before1 m c t d1, before2 m c t d2]
    iapply (run_later (F := Ideal) c (grid0.coords t) (fun h => hz ((firstPt_iff t).mp h)) (ms0 t) (hs0 t) (ms1 t) (hs1 t) (ms2 t) (hs2 t)
      (ms3 t) (hs3 t) scM (Memref.isWhole_whole _) (iblk m c 0 t) (win0_1.fill (grid0.coords t) d1 (iblk m c 1 t)) (iblk m c 2 t) (supp m c) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexists d1; rw [h1]; iexact H1
    isplitl [H2]; · iexact H2
    iexists _; rw [h3 d1]; iexact H3

/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the invariant gives the class's back: what the scratch holds is forgotten. -/
theorem hout (c : Dev nD) : (dats m 0 c).Φ (Fin.last cfg0.N) ⊢ Pipeline.ΦA spec0 c := by
  rw [show (dats m 0 c).Φ (Fin.last cfg0.N) = PhiS m c cfg0.N from rfl,
    PhiS_pos m c _ (by rw [show cfg0.N = 30 from N_0]; decide), PhiA_eq]
  iintro ⟨HS, Hg⟩
  isplitl [HS]
  · iexists _; iexact HS
  iexact Hg

-- the launch theorem's implicit arguments are found by unifying its conclusion with this one, which takes unfolding plain
-- definitions in a metavariable's type
set_option backward.isDefEq.respectTransparency.types false in
/-- The run: every weakly fair execution of @main terminates, faulting nowhere, with every array of the pipeline at what the
    proof data compute — the inputs as they were, the result at its entry contents overwritten by each point's written-back rows. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := body_obligation m) (hshare := fun c => (dats m 0 c).share_full fun _ => rfl) (howed := fun _ _ => rfl)
    (V := V m) (hmain := hmain m Variants.none) (hA := A_eq m) (hin := hin m) (hout := hout m)

/-- The frame claim's post. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Exact

end
-- ==== Proof.ValueIdeal.lean ====
/-
  The idealized kernel's result array, in closed form: after the run it holds the layer of the three argument arrays.

  Point t's blocks are read as the argument arrays at their rows: the features' and the weights' blocks are the whole arrays;
  the adjacency's block is rows 336·t + p (p below the number of rows inside the array); the result's written-back block is
  rows 336·t + p of the result. So what point t writes back is, entry by entry, the layer at row 336·t + p; and since row r
  is in block r / 336, the blocks cover the result array.
-/
import proofs.«178121_g53412213293592_cont_9to1c4b_632_16_alg».proof.Proof.FrameIdeal

set_option maxRecDepth 16384

noncomputable section

open scoped BigOperators

namespace Cert.KernelIdeal.Final

open Cert.KernelIdeal Cert.KernelIdeal.Gen Cert.KernelIdeal.Exact Cert.Spec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The block index of each window at each point: the features' and the weights' always (0, 0); the adjacency's and the
    result's (t, 0). -/
theorem index_facts : ∀ t : Fin cfg0.N,
    win0_0.index t 0 = 0 ∧ win0_0.index t 1 = 0 ∧ win0_1.index t 0 = t.val ∧ win0_1.index t 1 = 0
    ∧ win0_2.index t 0 = 0 ∧ win0_2.index t 1 = 0 ∧ win0_3.index t 0 = t.val ∧ win0_3.index t 1 = 0 :=
  (by decide +kernel : ∀ t : Fin grid0.N,
    win0_0.index t 0 = 0 ∧ win0_0.index t 1 = 0 ∧ win0_1.index t 0 = t.val ∧ win0_1.index t 1 = 0
    ∧ win0_2.index t 0 = 0 ∧ win0_2.index t 1 = 0 ∧ win0_3.index t 0 = t.val ∧ win0_3.index t 1 = 0)

/-- How many rows and columns of the result's block at point t lie inside the array: all 128 columns, and 336 rows but at
    the last point, which has the 256 that are left. -/
theorem xsize3_facts : ∀ t : Fin cfg0.N,
    win0_3.xsize (grid0.coords t) 0 = min 336 (10000 - 336 * t.val) ∧ win0_3.xsize (grid0.coords t) 1 = 128 :=
  (by decide +kernel : ∀ t : Fin grid0.N,
    win0_3.xsize (grid0.coords t) 0 = min 336 (10000 - 336 * t.val) ∧ win0_3.xsize (grid0.coords t) 1 = 128)

/-- The three argument arrays and the layer of them, on core c. -/
abbrev A0 (c : Dev nD) : FVec Ideal SF .f32 := (m ((c : Thread nD τ).loc main_arg0) : S10000x128.Idx → Elt Ideal .f32)
abbrev A1 (c : Dev nD) : FVec Ideal SA .f32 := (m ((c : Thread nD τ).loc main_arg1) : S10000x10000.Idx → Elt Ideal .f32)
abbrev A2 (c : Dev nD) : FVec Ideal SW .f32 := (m ((c : Thread nD τ).loc main_arg2) : S128x128.Idx → Elt Ideal .f32)
def result (c : Dev nD) : Buf (Elt Ideal) ((c : Thread nD τ).loc main_v0) := layer (A0 m c) (A1 m c) (A2 m c)

/-- The features' block at any point is the features array. -/
theorem iblk0_apply (c : Dev nD) (t : Fin cfg0.N) (x : S10000x128.Idx) :
    (iblk m c 0 t : Vec Ideal S10000x128 .f32) x = A0 m c x := by
  have hi := index_facts t
  unfold iblk
  rw [View.read_apply]
  show V m c main_arg0 _ = m (c.tc.loc main_arg0) _
  unfold V
  congr 1
  funext a
  apply Fin.ext
  match a with
  | ⟨0, _⟩ => show win0_0.index t 0 * 10000 + 1 * (x 0).val = (x 0).val; rw [hi.1]; omega
  | ⟨1, _⟩ => show win0_0.index t 1 * 128 + 1 * (x 1).val = (x 1).val; rw [hi.2.1]; omega

/-- The weights' block at any point is the weights array. -/
theorem iblk2_apply (c : Dev nD) (t : Fin cfg0.N) (x : S128x128.Idx) :
    (iblk m c 2 t : Vec Ideal S128x128 .f32) x = A2 m c x := by
  have hi := index_facts t
  unfold iblk
  rw [View.read_apply]
  show V m c main_arg2 _ = m (c.tc.loc main_arg2) _
  unfold V
  congr 1
  funext a
  apply Fin.ext
  match a with
  | ⟨0, _⟩ => show win0_2.index t 0 * 128 + 1 * (x 0).val = (x 0).val; rw [hi.2.2.2.2.1]; omega
  | ⟨1, _⟩ => show win0_2.index t 1 * 128 + 1 * (x 1).val = (x 1).val; rw [hi.2.2.2.2.2.1]; omega

/-- The adjacency's block at point t, at a row inside the array, is the adjacency array at row 336·t + that row. -/
theorem iblk1_apply (c : Dev nD) (t : Fin cfg0.N) (y : (win0_1.xblock (grid0.coords t)).Idx) (k : S10000x10000.Idx)
    (hk0 : (k 0).val = 336 * t.val + (y 0).val) (hk1 : (k 1).val = (y 1).val) :
    iblk m c 1 t y = A1 m c k := by
  have hi := index_facts t
  unfold iblk
  rw [View.read_apply]
  show V m c main_arg1 _ = m (c.tc.loc main_arg1) _
  unfold V
  congr 1
  funext a
  apply Fin.ext
  match a with
  | ⟨0, _⟩ => show win0_1.index t 0 * 336 + 1 * (y 0).val = (k 0).val; rw [hi.2.2.1, hk0]; omega
  | ⟨1, _⟩ => show win0_1.index t 1 * 10000 + 1 * (y 1).val = (k 1).val; rw [hi.2.2.2.1, hk1]; omega

/-- From the first point on the scratch holds the transformed features. -/
theorem supp_apply (c : Dev nD) (k : Fin 10000) (q : Fin 128) : supp m c (ix2 k q) = support (A0 m c) (A2 m c) k q := by
  have e0 : (iblk m c 0 t₀ : Vec Ideal S10000x128 .f32) = A0 m c := funext (iblk0_apply m c t₀)
  have e2 : (iblk m c 2 t₀ : Vec Ideal S128x128 .f32) = A2 m c := funext (iblk2_apply m c t₀)
  unfold supp
  rw [Pay.pay1_apply, e0, e2]

/-- What point t writes back is the layer at its rows: entry (p, q) of the written-back block is the layer at (336·t + p, q). -/
theorem flushed_eq (c : Dev nD) (t : Fin cfg0.N) (hf : (cfg0.win 3).flush t = true) :
    (dats m 0 c).flushed 3 t = ((cfg0.win 3).blk t).view.read (Elt Ideal) (result m c) := by
  have hi := index_facts t
  have hx := xsize3_facts t
  have hxs := xsize_facts t
  show (cfg0.win 3).cut (grid0.coords t) ((dats m 0 c).after 3 t) = _
  rw [after3]
  funext j
  rw [View.read_apply]
  have hj0 : (j 0).val < win0_3.xsize (grid0.coords t) 0 := (j 0).isLt
  have hj1 : (j 1).val < win0_3.xsize (grid0.coords t) 1 := (j 1).isLt
  have hr : 336 * t.val + (j 0).val < 10000 := by rw [hx.1] at hj0; omega
  have hq : (j 1).val < 128 := by rw [hx.2] at hj1; exact hj1
  -- where the block's entry sits in the result array
  have he : (((cfg0.win 3).blk t).view.emb j : S10000x128.Idx) = ix2 (⟨336 * t.val + (j 0).val, hr⟩ : Fin 10000) (⟨(j 1).val, hq⟩ : Fin 128) :=
    funext fun a => Fin.ext (by
      match a with
      | ⟨0, _⟩ => show win0_3.index t 0 * 336 + 1 * (j 0).val = 336 * t.val + (j 0).val; rw [hi.2.2.2.2.2.2.1]; omega
      | ⟨1, _⟩ => show win0_3.index t 1 * 128 + 1 * (j 1).val = (j 1).val; rw [hi.2.2.2.2.2.2.2]; omega)
  show outBlk m c t (win0_3.xinj (grid0.coords t) j) = result m c (((cfg0.win 3).blk t).view.emb j)
  rw [he]
  show _ = layerAt (A0 m c) (A1 m c) (A2 m c) ⟨336 * t.val + (j 0).val, hr⟩ ⟨(j 1).val, hq⟩
  -- the same entry inside the block
  have hy : win0_3.xinj (grid0.coords t) j = ix2 (⟨(j 0).val, by rw [hx.1] at hj0; omega⟩ : Fin 336) (⟨(j 1).val, hq⟩ : Fin 128) :=
    funext fun a => Fin.ext (by
      match a with
      | ⟨0, _⟩ => rfl
      | ⟨1, _⟩ => rfl)
  rw [hy]
  unfold outBlk layerAt
  rw [Pay.pay2_apply]
  refine congrArg (fun z => max z zero) (Finset.sum_congr rfl fun k _ => ?_)
  congr 1
  · -- the staged row is the adjacency's row 336·t + p
    have hm : win0_1.moved (grid0.coords t) (ix2 (⟨(j 0).val, by rw [hx.1] at hj0; omega⟩ : Fin 336) k) = true :=
      (win0_1.moved_iff _ _).mpr fun a => by
        match a with
        | ⟨0, _⟩ =>
          show (j 0).val < win0_1.xsize (grid0.coords t) 0
          rw [hxs.1]; exact hj0
        | ⟨1, _⟩ =>
          show k.val < win0_1.xsize (grid0.coords t) 1
          rw [hxs.2]; exact k.isLt
    unfold adjBlk
    simp only [Window.fill, hm, ↓reduceDIte]
    exact iblk1_apply m c t _ (ix2 (⟨336 * t.val + (j 0).val, hr⟩ : Fin 10000) k) rfl rfl
  · exact supp_apply m c k _

/-- Row r of the result is in the block of point r / 336: the written-back blocks cover the array, which therefore ends
    holding the layer. -/
theorem final (c : Dev nD) : (dats m 0 c).arrAt 3 cfg0.N = result m c :=
  (dats m 0 c).arrAt_eq_of_cover 3 (result m c) (flushed_eq m c) fun i => by
    have h0 : (i 0 : Nat) < 10000 := (i 0).isLt
    have h1 : (i 1 : Nat) < 128 := (i 1).isLt
    have hN : cfg0.N = 30 := N_0
    obtain ⟨t, ht⟩ : ∃ t : Fin cfg0.N, t.val = (i 0 : Nat) / 336 := ⟨⟨(i 0 : Nat) / 336, by rw [hN]; omega⟩, rfl⟩
    refine ⟨t, flush0_3 t, ?_⟩
    have hi := index_facts t
    have hx := xsize3_facts t
    show i ∈ ((View.whole main_v0).slice (win0_3.rect t)).set
    rw [View.set_slice_whole, Rect.mem_set_unit]
    intro a
    match a with
    | ⟨0, _⟩ =>
      show win0_3.index t 0 * 336 ≤ (i 0 : Nat) ∧ (i 0 : Nat) < win0_3.index t 0 * 336 + win0_3.xsize (grid0.coords t) 0
      rw [hi.2.2.2.2.2.2.1, hx.1, ht]; omega
    | ⟨1, _⟩ =>
      show win0_3.index t 1 * 128 ≤ (i 1 : Nat) ∧ (i 1 : Nat) < win0_3.index t 1 * 128 + win0_3.xsize (grid0.coords t) 1
      rw [hi.2.2.2.2.2.2.2, hx.2]; omega

/-- The run, read: the result array ends holding the layer of the argument arrays, and these are unchanged. -/
theorem run : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (final m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c)))⟩) (run_main m ρ)

end Cert.KernelIdeal.Final

end
-- ==== Proof.RefSide.lean ====
/-
  The reference, read entry by entry on the extended reals, is the layer: its two dot_generals are the two sums (the inner one
  over the 128 channels, the outer over the 10000 nodes), and its relu is the maximum with the zero word.
-/
import proofs.«178121_g53412213293592_cont_9to1c4b_632_16_alg».proof.Proof.Gen.ReferenceIdeal.Read
import proofs.«178121_g53412213293592_cont_9to1c4b_632_16_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Cert.Spec
open Idealize.ShloMosaic Idealize.ShloMosaic.ValueIdx

/-- The reference's result, as a function of its three arguments, is the layer. -/
theorem ref_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) :
    val_main_v2 (F := Ideal) x0 x1 x2 = layer x0 x1 x2 := by
  funext i
  obtain ⟨r, q, rfl⟩ : ∃ (r : Fin 10000) (q : Fin 128), i = ix2 r q := ⟨i 0, i 1, eq_ix2 i⟩
  have el1 : ∀ k : Fin 10000, lidx_main_v1 (ix2 r q) k = ix2 r k := fun k => funext fun a => Fin.ext (by
    match a with
    | ⟨0, _⟩ => rfl
    | ⟨1, _⟩ => rfl)
  have er1 : ∀ k : Fin 10000, ridx_main_v1 (ix2 r q) k = ix2 k q := fun k => funext fun a => Fin.ext (by
    match a with
    | ⟨0, _⟩ => rfl
    | ⟨1, _⟩ => rfl)
  have el0 : ∀ (k : Fin 10000) (j : Fin 128), lidx_main_v0 (ix2 k q) j = ix2 k j := fun k j => funext fun a => Fin.ext (by
    match a with
    | ⟨0, _⟩ => rfl
    | ⟨1, _⟩ => rfl)
  have er0 : ∀ (k : Fin 10000) (j : Fin 128), ridx_main_v0 (ix2 k q) j = ix2 j q := fun k j => funext fun a => Fin.ext (by
    match a with
    | ⟨0, _⟩ => rfl
    | ⟨1, _⟩ => rfl)
  rw [val_main_v2_apply, val_main_call0_v0_apply, val_main_call0_cst_apply, val_main_v1_apply, layer_ix2]
  show max _ _ = layerAt x0 x1 x2 r q
  unfold layerAt
  refine congrArg (fun z => max z zero) (Finset.sum_congr rfl fun k _ => ?_)
  rw [el1, er1, val_main_v0_apply]
  unfold support
  simp only [el0, er0]

end Cert.ReferenceIdeal.RefValue

end
-- ==== Proof.lean ====
/-
  The certificate: a graph-convolution layer, relu(adj · (features · weight)), as one fused kernel against its plain reference.

  The kernel walks 30 blocks of 336 rows of the 10000 × 10000 adjacency matrix. At the first block it computes the transformed
  features (features · weight) once into a scratch buffer that stays resident; at every block it multiplies the block's rows by
  the scratch and rectifies. The last block overhangs the matrix by 80 rows; those rows of its staging buffer hold nothing
  named, and the rows computed from them are cut off when the block is written back.

  frame (word level): the program runs to the end, faults nowhere, and leaves its arguments unchanged — proved with the
  result's window forgotten, since at word level a matrix product of a buffer with unnamed rows is not known row by row.
  frame (idealized kernel) and the value: on the extended reals row p of a product reads row p of its left operand only, so
  the written-back rows are exactly the layer's rows, and the 30 written-back blocks cover the result.
  frame (reference) and its value: its run, read entry by entry, is the same two sums and the same maximum.
  Both sides are one function of the arguments, `Cert.Spec.layer`, with the same grouping of the sums: no distributivity, no
  finiteness of the inputs, is used. The idealization rewrote nothing, so `preserves` has nothing to state.
-/
import proofs.«178121_g53412213293592_cont_9to1c4b_632_16_alg».proof.Defs
import proofs.«178121_g53412213293592_cont_9to1c4b_632_16_alg».proof.Proof.Gen.Kernel
import proofs.«178121_g53412213293592_cont_9to1c4b_632_16_alg».proof.Proof.Gen.KernelIdeal
import proofs.«178121_g53412213293592_cont_9to1c4b_632_16_alg».proof.Proof.Gen.ReferenceIdeal
import proofs.«178121_g53412213293592_cont_9to1c4b_632_16_alg».proof.Proof.Gen.Pre_finite_inputs
import proofs.«178121_g53412213293592_cont_9to1c4b_632_16_alg».proof.Proof.Gen.ReferenceIdeal.Run
import proofs.«178121_g53412213293592_cont_9to1c4b_632_16_alg».proof.Proof.Gen.ReferenceIdeal.Read
import proofs.«178121_g53412213293592_cont_9to1c4b_632_16_alg».proof.Proof.FrameBits
import proofs.«178121_g53412213293592_cont_9to1c4b_632_16_alg».proof.Proof.ValueIdeal
import proofs.«178121_g53412213293592_cont_9to1c4b_632_16_alg».proof.Proof.RefSide
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Forget.frame (F := Bits) m ρ

/-- So does the idealized kernel. -/
theorem frame_ki : Cert.frame_KernelIdeal := fun m ρ _ => Cert.KernelIdeal.Exact.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the layer of the arguments in their result. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.ref_eq, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
